-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg9 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg6 : FVec F S96x96 .f32) (main_arg7 : FVec F S96 .f32) (main_arg8 : FVec F S96x96 .f32) (main_arg9 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg9 main_v33

def fn {F : FTy → Type} [FloatOps F] (main_arg0 : FVec F S50000x96 .f32) (main_arg1 : FVec F S800000x96 .f32) (main_arg2 : IVec S800000 32) (main_arg3 : IVec S800000 32) (main_arg4 : FVec F S96x96 .f32) (main_arg5 : FVec F S96 .f32) (main_arg6 : FVec F S96x96 .f32) (main_arg7 : FVec F S96 .f32) (main_arg8 : FVec F S96x96 .f32) (main_arg9 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_v13 main_v16
-- ==== Kernel.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x2 : Shape := ⟨2, ![50000, 2]⟩
abbrev S1x96 : Shape := ⟨2, ![1, 96]⟩
abbrev S5000x96 : Shape := ⟨2, ![5000, 96]⟩
abbrev S5000x2 : Shape := ⟨2, ![5000, 2]⟩
abbrev S5000x1 : Shape := ⟨2, ![5000, 1]⟩
abbrev S10000x96 : Shape := ⟨2, ![10000, 96]⟩

abbrev nBuf : Space → Nat
  | .hbm => 41
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S_, .i32⟩
  | .hbm, ⟨11, _⟩ => ⟨S800000, .i32⟩
  | .hbm, ⟨12, _⟩ => ⟨S_, .i32⟩
  | .hbm, ⟨13, _⟩ => ⟨S50000, .i32⟩
  | .hbm, ⟨14, _⟩ => ⟨S800000x1, .i32⟩
  | .hbm, ⟨15, _⟩ => ⟨S50000, .i32⟩
  | .hbm, ⟨16, _⟩ => ⟨S50000, .f32⟩
  | .hbm, ⟨17, _⟩ => ⟨S_, .i32⟩
  | .hbm, ⟨18, _⟩ => ⟨S50000, .i32⟩
  | .hbm, ⟨19, _⟩ => ⟨S800000x1, .i32⟩
  | .hbm, ⟨20, _⟩ => ⟨S50000, .i32⟩
  | .hbm, ⟨21, _⟩ => ⟨S50000, .f32⟩
  | .hbm, ⟨22, _⟩ => ⟨S_, .f32⟩
  | .hbm, ⟨23, _⟩ => ⟨S50000x96, .f32⟩
  | .hbm, ⟨24, _⟩ => ⟨S800000x1, .i32⟩
  | .hbm, ⟨25, _⟩ => ⟨S50000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x1, .f32⟩
  | .hbm, ⟨31, _⟩ => ⟨S50000x1, .f32⟩
  | .hbm, ⟨32, _⟩ => ⟨S50000x2, .f32⟩
  | .hbm, ⟨33, _⟩ => ⟨S1x96, .f32⟩
  | .hbm, ⟨34, _⟩ => ⟨S1x96, .f32⟩
  | .hbm, ⟨35, _⟩ => ⟨S1x96, .f32⟩
  | .hbm, ⟨36, _⟩ => ⟨S96x96, .bf16⟩
  | .hbm, ⟨37, _⟩ => ⟨S96x96, .bf16⟩
  | .hbm, ⟨38, _⟩ => ⟨S96x96, .bf16⟩
  | .hbm, ⟨39, _⟩ => ⟨S50000x96, .f32⟩
  | .hbm, ⟨40, _⟩ => ⟨S800000x96, .f32⟩
  | .local _ .vmem, ⟨0, _⟩ => ⟨S5000x96, .f32⟩
  | .local _ .vmem, ⟨1, _⟩ => ⟨S5000x96, .f32⟩
  | .local _ .vmem, ⟨2, _⟩ => ⟨S5000x2, .f32⟩
  | .local _ .vmem, ⟨3, _⟩ => ⟨S5000x2, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x96, .bf16⟩
  | .local _ .vmem, ⟨9, _⟩ => ⟨S1x96, .f32⟩
  | .local _ .vmem, ⟨10, _⟩ => ⟨S96x96, .bf16⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S10000x96, .f32⟩
  | .local _ .vmem, ⟨15, _⟩ => ⟨S10000x96, .f32⟩
  | .local _ .vmem, ⟨16, _⟩ => ⟨S96x96, .bf16⟩
  | .local _ .vmem, ⟨17, _⟩ => ⟨S1x96, .f32⟩
  | .local _ .vmem, ⟨18, _⟩ => ⟨S10000x96, .f32⟩
  | .local _ .vmem, ⟨19, _⟩ => ⟨S10000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  shapeCasts_S96_S1x96 : S96.ShapeCasts S1x96
  bitsLt_bf16_f32 : FTy.bits .bf16 < FTy.bits .f32
  inb_S5000x96_S5000x96_0_0 : ∀ a, (![0, 0] : Fin 2 → Nat) a + S5000x96.size a ≤ S5000x96.size a
  h_S5000x96 : 0 < S5000x96.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x96 : S5000x1.Broadcasts S5000x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S10000x96_S10000x96_0_0 : ∀ a, (![0, 0] : Fin 2 → Nat) a + S10000x96.size a ≤ S10000x96.size a
  h_S10000x96 : 0 < S10000x96.numel
  broadcasts_S1x96_S10000x96 : S1x96.Broadcasts S10000x96
  scatter_S50000_S800000x1_S800000_n_0_0_1_wf : ScatterDims.WF S50000 S800000x1 S800000 [] [0] [0] 1
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S10000x96_S96x96_S10000x96_1_0_0_1_n_n_wf : DotDims.WF S10000x96 S96x96 S10000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x96.size a ≤ S96x96.size a
  hwx0_6 : ∀ i : grid0.Coords, EltTy.bits .bf16 = 32 ∨ (Rect.block (s := S96x96) S96x96.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x96.size a ≤ S50000x96.size a
  hwx0_8 : ∀ i : grid0.Coords, EltTy.bits .f32 = 32 ∨ (Rect.block (s := S50000x96) S5000x96.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S800000x96.size a
  hwx1_0 : ∀ i : grid1.Coords, EltTy.bits .f32 = 32 ∨ (Rect.block (s := S800000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .bf16 = 32 ∨ (Rect.block (s := S96x96) S96x96.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x96.size a ≤ S800000x96.size a
  hwx1_3 : ∀ i : grid1.Coords, EltTy.bits .f32 = 32 ∨ (Rect.block (s := S800000x96) S10000x96.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S96x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S5000x96.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x96 : Shape := ⟨2, ![1, 96]⟩

abbrev nBuf : Space → Nat
  | .hbm => 49
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S50000x1, .f32⟩
  | .hbm, ⟨21, _⟩ => ⟨S50000x96, .f32⟩
  | .hbm, ⟨22, _⟩ => ⟨S50000x96, .f32⟩
  | .hbm, ⟨23, _⟩ => ⟨S50000x96, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000x96, .f32⟩
  | .hbm, ⟨30, _⟩ => ⟨S800000x1, .i32⟩
  | .hbm, ⟨31, _⟩ => ⟨S50000x96, .f32⟩
  | .hbm, ⟨32, _⟩ => ⟨S50000x1, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S50000x96, .f32⟩
  | .hbm, ⟨37, _⟩ => ⟨S1x96, .f32⟩
  | .hbm, ⟨38, _⟩ => ⟨S50000x96, .f32⟩
  | .hbm, ⟨39, _⟩ => ⟨S50000x96, .f32⟩
  | .hbm, ⟨40, _⟩ => ⟨S50000x96, .f32⟩
  | .hbm, ⟨41, _⟩ => ⟨S1x96, .f32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S800000x96, .f32⟩
  | .hbm, ⟨46, _⟩ => ⟨S1x96, .f32⟩
  | .hbm, ⟨47, _⟩ => ⟨S800000x96, .f32⟩
  | .hbm, ⟨48, _⟩ => ⟨S800000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S1x96_S800000x96_0_1 : S1x96.BroadcastsInDim S800000x96 (![0, 1] : Fin 2 → Fin S800000x96.rank)
  scatter_S50000_S800000x1_S800000_n_0_0_1_wf : ScatterDims.WF S50000 S800000x1 S800000 [] [0] [0] 1
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S800000x96_S96x96_S800000x96_1_0_0_1_n_n_wf : DotDims.WF S800000x96 S96x96 S800000x96 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf

class Facts : Prop extends Facts₀ where

variable [Facts]
-- ==== Proof.KernelRun.lean ====
/-
  The idealized kernel's run with its two result arrays named.

  @main is a stretch of host operations followed by two pipelined regions.  The buffer contents at the
  boundaries are a fold: the launch memory, then the host operations' results (`W1`), then region 0's arrays at
  what its write-backs leave (`W2`), then region 1's (`W3`).  Every weakly fair execution terminates with
  every unscoped buffer at `W3`; read at the two results this says that `h` is the fold of the node region's
  write-backs over the contents `V1` and `he` the fold of the edge region's over `V2`, and read at an
  argument that it is as launched.
-/
import proofs.«153162_j40810779247267_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The node region's result array is not one of the edge region's arrays, so the last boundary still holds what
    the node region's write-backs left in it. -/
theorem W3_main_v24 (c : Dev nD) :
    W3 m ρ c (Proc.devRef .tc main_v24) = (dat0 (V1 m ρ) c).arrAt 8 cfg0.N :=
  (W3_of_ne m ρ c main_v24 (by decide)).trans (W2_arr m ρ c 8)

/-- The edge region's result array holds what that region's write-backs left in it. -/
theorem W3_main_v25 (c : Dev nD) :
    W3 m ρ c (Proc.devRef .tc main_v25) = (dat1 (V2 m ρ) c).arrAt 3 cfg1.N :=
  W3_arr m ρ c 3

set_option backward.isDefEq.respectTransparency.types false in
/-- Every weakly fair execution of @main terminates, nothing faulting, with every unscoped buffer of every core
    at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run read at the two results and the ten arguments: `h` and `he` are the folds of their regions'
    write-backs, the arguments are as launched. -/
theorem run_values : θ_run defs (onTc (τ := τ) (main (F := F))) ⟨m, fun _ => 0, ρ⟩ (fun r => ∀ c : Dev nD,
      r.2.mem ((c.tc : Thread nD τ).loc main_v24) = (dat0 (V1 m ρ) c).arrAt 8 cfg0.N
      ∧ r.2.mem ((c.tc : Thread nD τ).loc main_v25) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v24 (by decide))).trans (W3_main_v24 m ρ c),
       (h c _ (mem_uc main_v25 (by decide))).trans (W3_main_v25 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)
    (run_all m ρ)

end Cert.KernelIdeal.RunValue

end
-- ==== Proof.Spec.lean ====
/-
  The mathematics of one message-passing layer, entry by entry, over the extended reals.

  For a node `r` with in-degree `dIn r`, out-degree `dOut r`, embedding `node (r, ·)` and the sums
  `esIn (r, ·)`, `esOut (r, ·)` of the embeddings of its incoming and outgoing edges, the two aggregated
  messages are `dIn r · node (r, k) − esIn (r, k)` and `dOut r · node (r, k) − esOut (r, k)`; the layer's output
  is the sum of their projections by `W_O` and `W_I`, each with its bias.  The kernel adds the four terms from the
  left, `((a + b_O) + c) + b_I`; the reference adds the two biased projections, `(a + b_O) + (c + b_I)`.  Addition
  of extended reals is associative (with `⊥` absorbing), so the two agree with no finiteness assumption.  An
  edge's output is the projection of its embedding by `W_rel` plus a bias, the same on both sides.
-/
import Idealize.ShloMosaic.Lib.ValueIdx
import Idealize.ShloMosaic.PureOps.Ideal

noncomputable section

open scoped BigOperators

namespace Cert.Spec

open Idealize.ShloMosaic Idealize.ShloMosaic.ValueIdx

/-- The aggregated message of node `r` at feature `k`: the degree times the node's own feature, less the sum of the
    incident edges' features. -/
def msg {n : Nat} (d : Fin n → EReal) (node es : (⟨2, ![n, 96]⟩ : Shape).Idx → EReal) (r : Fin n) (k : Fin 96) : EReal :=
  d r * node (ix2 r k) - es (ix2 r k)

/-- Row `r` of `x` projected on column `j` of the weight matrix `W`. -/
def proj {n : Nat} (x : Fin n → Fin 96 → EReal) (W : (⟨2, ![96, 96]⟩ : Shape).Idx → EReal) (r : Fin n) (j : Fin 96) : EReal :=
  ∑ k : Fin 96, x r k * W (ix2 k j)

/-- A node's output as the kernel adds it up: `((ho·W_O + b_O) + hi·W_I) + b_I`. -/
def nodeOutK {n : Nat} (dIn dOut : Fin n → EReal) (node esIn esOut : (⟨2, ![n, 96]⟩ : Shape).Idx → EReal)
    (WO WI : (⟨2, ![96, 96]⟩ : Shape).Idx → EReal) (bO bI : Fin 96 → EReal) (r : Fin n) (j : Fin 96) : EReal :=
  ((proj (msg dIn node esIn) WO r j + bO j) + proj (msg dOut node esOut) WI r j) + bI j

/-- A node's output as the reference adds it up: `(ho·W_O + b_O) + (hi·W_I + b_I)`. -/
def nodeOutR {n : Nat} (dIn dOut : Fin n → EReal) (node esIn esOut : (⟨2, ![n, 96]⟩ : Shape).Idx → EReal)
    (WO WI : (⟨2, ![96, 96]⟩ : Shape).Idx → EReal) (bO bI : Fin 96 → EReal) (r : Fin n) (j : Fin 96) : EReal :=
  (proj (msg dIn node esIn) WO r j + bO j) + (proj (msg dOut node esOut) WI r j + bI j)

/-- The two orders of addition give one value: associativity of `+` on the extended reals. -/
theorem nodeOutK_eq_nodeOutR {n : Nat} (dIn dOut : Fin n → EReal) (node esIn esOut : (⟨2, ![n, 96]⟩ : Shape).Idx → EReal)
    (WO WI : (⟨2, ![96, 96]⟩ : Shape).Idx → EReal) (bO bI : Fin 96 → EReal) (r : Fin n) (j : Fin 96) :
    nodeOutK dIn dOut node esIn esOut WO WI bO bI r j = nodeOutR dIn dOut node esIn esOut WO WI bO bI r j := by
  unfold nodeOutK nodeOutR
  exact add_assoc _ _ _

/-- A node's output depends only on the node's own row of each array: two families of arrays (a block and the
    whole array, say) that agree on row `r` of the one and row `r'` of the other give the same value there. -/
theorem nodeOutK_congr {n n' : Nat} {dIn dOut : Fin n → EReal} {node esIn esOut : (⟨2, ![n, 96]⟩ : Shape).Idx → EReal}
    {dIn' dOut' : Fin n' → EReal} {node' esIn' esOut' : (⟨2, ![n', 96]⟩ : Shape).Idx → EReal}
    (WO WI : (⟨2, ![96, 96]⟩ : Shape).Idx → EReal) (bO bI : Fin 96 → EReal) (r : Fin n) (r' : Fin n') (j : Fin 96)
    (h1 : dIn r = dIn' r') (h2 : dOut r = dOut' r') (h3 : ∀ k, node (ix2 r k) = node' (ix2 r' k))
    (h4 : ∀ k, esIn (ix2 r k) = esIn' (ix2 r' k)) (h5 : ∀ k, esOut (ix2 r k) = esOut' (ix2 r' k)) :
    nodeOutK dIn dOut node esIn esOut WO WI bO bI r j = nodeOutK dIn' dOut' node' esIn' esOut' WO WI bO bI r' j := by
  unfold nodeOutK proj msg
  simp only [h1, h2, h3, h4, h5]

/-- An edge's output: its embedding projected by `W` plus the bias. -/
def edgeOut {n : Nat} (e : (⟨2, ![n, 96]⟩ : Shape).Idx → EReal) (W : (⟨2, ![96, 96]⟩ : Shape).Idx → EReal) (b : Fin 96 → EReal)
    (r : Fin n) (j : Fin 96) : EReal :=
  (∑ k : Fin 96, e (ix2 r k) * W (ix2 k j)) + b j

/-- An edge's output depends only on the edge's own row of the embeddings. -/
theorem edgeOut_congr {n n' : Nat} {e : (⟨2, ![n, 96]⟩ : Shape).Idx → EReal} {e' : (⟨2, ![n', 96]⟩ : Shape).Idx → EReal}
    (W : (⟨2, ![96, 96]⟩ : Shape).Idx → EReal) (b : Fin 96 → EReal) (r : Fin n) (r' : Fin n') (j : Fin 96)
    (h : ∀ k, e (ix2 r k) = e' (ix2 r' k)) : edgeOut e W b r j = edgeOut e' W b r' j := by
  unfold edgeOut
  simp only [h]

end Cert.Spec

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.KernelBodies.lean ====
/-
  The two kernel bodies read at an entry, over the extended reals.

  The node kernel's body, on a block of 5000 rows, loads the rows' embeddings, their two degrees (columns 0 and 1
  of a two-column block), the two edge sums, the two weight matrices and the two one-row biases, and stores, at
  `(p, q)`, `((∑ₖ (deg₀ p · x (p, k) − s (p, k)) · W_O (k, q) + b_O q) + ∑ₖ (deg₁ p · x (p, k) − s' (p, k)) · W_I (k, q)) + b_I q`:
  a change of float format is the identity, a matrix product into a zero accumulator is the plain sum over the
  contracted coordinate, a column slice broadcast along the rows reads its column, a one-row bias broadcast down the
  rows reads its row.  The edge kernel's body stores `∑ₖ e (p, k) · W (k, q) + b q`.
-/
import proofs.«153162_j40810779247267_2_alg».proof.Proof.Gen.KernelIdeal.Skeleton
import proofs.«153162_j40810779247267_2_alg».proof.Proof.Spec
import proofs.«153162_j40810779247267_2_alg».proof.Proof.LibContractPlain
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Cert.Spec
open Idealize.ShloMosaic Idealize.ShloMosaic.TcCoe Idealize.ShloMosaic.ValueIdx

/-- Column `c` of a two-column block, cut out as a one-column block, read at row `p`. -/
theorem colSlice_apply (c : Nat) (hc : c < 2) (v : S5000x2.Idx → EReal) (h : S5000x2.Slices ![0, c] S5000x1) (p : Fin 5000) :
    extractStridedSlice S5000x1 ![0, c] v h (ix2 p (0 : Fin 1)) = v (ix2 p (⟨c, hc⟩ : Fin 2)) := by
  refine extractStridedSlice_apply ![0, c] v h (ix2 p (0 : Fin 1)) (ix2 p (⟨c, hc⟩ : Fin 2)) fun a => ?_
  match a with
  | ⟨0, _⟩ => show p.val = 0 + p.val; omega
  | ⟨1, _⟩ => show c = c + 0; omega

/-- A one-column block broadcast along 96 columns reads, at `(p, q)`, its entry of row `p`. -/
theorem colBroadcast_apply (u : S5000x1.Idx → EReal) (h : S5000x1.Broadcasts S5000x96) (p : Fin 5000) (q : Fin 96) :
    broadcastTo S5000x96 u h (ix2 p q) = u (ix2 p (0 : Fin 1)) := by
  refine broadcastTo_apply u h (ix2 p q) (ix2 p (0 : Fin 1)) fun a => ?_
  match a with
  | ⟨0, _⟩ => show p.val = if (5000 : Nat) = 1 then 0 else p.val; rw [if_neg (by decide)]
  | ⟨1, _⟩ => show 0 = if (1 : Nat) = 1 then 0 else q.val; rw [if_pos rfl]

/-- The node kernel's matrix product into a zero accumulator, at `(p, q)`: the sum over the shared coordinate. -/
theorem nodeMatmul_apply (l : FVec Ideal S5000x96 .bf16) (r : FVec Ideal S96x96 .bf16) (p : Fin 5000) (q : Fin 96) :
    matmul dot_S5000x96_S96x96_S5000x96_1_0_0_1_n_n none l r (constant (F := Ideal) S5000x96 .f32 0x00000000#32) (ix2 p q)
      = ∑ k : Fin 96, l (ix2 p k) * r (ix2 k q) :=
  Cert.LibContractPlain.matmulPlain_zero_apply 5000 96 96 dot_S5000x96_S96x96_S5000x96_1_0_0_1_n_n_wf none l r p q

/-- The edge kernel's matrix product into a zero accumulator, at `(p, q)`. -/
theorem edgeMatmul_apply (l : FVec Ideal S10000x96 .bf16) (r : FVec Ideal S96x96 .bf16) (p : Fin 10000) (q : Fin 96) :
    matmul dot_S10000x96_S96x96_S10000x96_1_0_0_1_n_n none l r (constant (F := Ideal) S10000x96 .f32 0x00000000#32) (ix2 p q)
      = ∑ k : Fin 96, l (ix2 p k) * r (ix2 k q) :=
  Cert.LibContractPlain.matmulPlain_zero_apply 10000 96 96 dot_S10000x96_S96x96_S10000x96_1_0_0_1_n_n_wf none l r p q

/-- THE NODE KERNEL'S STORED VALUE at `(p, q)` of a block, from the loaded blocks. -/
theorem node_payload (x : Vec Ideal S5000x96 .f32) (deg : Vec Ideal S5000x2 .f32) (s : Vec Ideal S5000x96 .f32)
    (wO : Vec Ideal S96x96 .bf16) (bO : Vec Ideal S1x96 .f32) (s' : Vec Ideal S5000x96 .f32)
    (wI : Vec Ideal S96x96 .bf16) (bI : Vec Ideal S1x96 .f32) (p : Fin 5000) (q : Fin 96) :
    k0_pay1 (F := Ideal) x deg s wO bO s' wI bI (ix2 p q)
      = nodeOutK (fun r => deg (ix2 r (0 : Fin 2))) (fun r => deg (ix2 r (1 : Fin 2))) x s s' wO wI
          (fun j => bO (ix2 (0 : Fin 1) j)) (fun j => bI (ix2 (0 : Fin 1) j)) p q := by
  unfold k0_pay1 nodeOutK proj msg
  dsimp only
  simp only [shapeCast_self]
  rw [addf_apply, addf_apply, addf_apply, nodeMatmul_apply, nodeMatmul_apply,
    broadcastTo_1b_ab_apply, broadcastTo_1b_ab_apply]
  simp only [truncf_apply, subf_apply, mulf_apply, colBroadcast_apply, colSlice_apply 0 (by decide), colSlice_apply 1 (by decide)]
  rfl

/-- THE EDGE KERNEL'S STORED VALUE at `(p, q)` of a block, from the loaded blocks. -/
theorem edge_payload (e : Vec Ideal S10000x96 .f32) (w : Vec Ideal S96x96 .bf16) (b : Vec Ideal S1x96 .f32)
    (p : Fin 10000) (q : Fin 96) :
    k1_pay1 (F := Ideal) e w b (ix2 p q) = edgeOut e w (fun j => b (ix2 (0 : Fin 1) j)) p q := by
  unfold k1_pay1 edgeOut
  dsimp only
  simp only [shapeCast_self]
  rw [addf_apply, edgeMatmul_apply, broadcastTo_1b_ab_apply]
  simp only [truncf_apply]

end Cert.KernelIdeal.Body

end
-- ==== Proof.NodeBlocks.lean ====
/-
  The node region's result array as one function of the arrays the region finds.

  The region walks ten grid points; point `t` stages rows `5000·t … 5000·t + 4999` of the node embeddings, of the
  two-column degree array and of the two edge sums, the whole of both weight matrices and both one-row biases, and
  writes back rows `5000·t … 5000·t + 4999` of the result.  A node's output depends only on the node's own row of
  each row-tiled array, so what point `t` writes back is block `t` of the whole-array function `nodeArr`; the ten
  blocks tile the fifty thousand rows (row `r` is in block `r / 5000`), so the result array ends holding `nodeArr`.
-/
import proofs.«153162_j40810779247267_2_alg».proof.Proof.Gen.KernelIdeal.Frame
import proofs.«153162_j40810779247267_2_alg».proof.Proof.KernelBodies
import Idealize.ShloMosaic.Lib.Pipeline.Value

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- THE NODE REGION'S RESULT, as one function of the arrays the region finds: at `(r, j)` the node layer's output
    of row `r`. -/
def nodeArr (c : Dev nD) : S50000x96.Idx → EReal := fun i =>
  nodeOutK (n := 50000) (fun r => V c main_v17 (ix2 r (0 : Fin 2))) (fun r => V c main_v17 (ix2 r (1 : Fin 2)))
    (V c main_arg0) (V c main_v11) (V c main_v14) (V c main_v21) (V c main_v22)
    (fun j => V c main_v18 (ix2 (0 : Fin 1) j)) (fun j => V c main_v19 (ix2 (0 : Fin 1) j)) (i 0) (i 1)

/-- The printed index maps over the ten points: the row-tiled windows move with the result's row block, their
    column block is 0; the weights and biases stay at block (0, 0); the result's row block is the point itself. -/
theorem node_idx : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = win0_8.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 ∧ win0_8.index t (0 : Fin 2) ≤ 9 :=
  (by decide +kernel : ∀ t : Fin grid0.N, _)

/-- Every row block is some point's. -/
theorem node_onto : ∀ q : Fin 10, ∃ t : Fin cfg0.N, win0_8.index t = ![q.val, 0] :=
  (by decide +kernel : ∀ q : Fin 10, ∃ t : Fin grid0.N, win0_8.index t = ![q.val, 0])

/-- The weight and bias windows' one block is the whole array. -/
theorem node_w4 (c : Dev nD) (t : Fin cfg0.N) : iblk0 V c 4 t = V c main_v21 := by
  obtain ⟨-, -, -, -, -, -, -, -, e0, e1, -⟩ := node_idx t
  funext y
  show V c main_v21 (((cfg0.win 4).blk t).view.emb y) = V c main_v21 y
  refine congrArg _ (funext fun a => Fin.ext ?_)
  match a with
  | ⟨0, _⟩ => show win0_4.index t (0 : Fin 2) * 96 + 1 * (y 0).val = (y 0).val; omega
  | ⟨1, _⟩ => show win0_4.index t (1 : Fin 2) * 96 + 1 * (y 1).val = (y 1).val; omega

theorem node_w5 (c : Dev nD) (t : Fin cfg0.N) : iblk0 V c 5 t = V c main_v18 := by
  obtain ⟨-, -, -, -, -, -, -, -, -, -, e0, e1, -⟩ := node_idx t
  funext y
  show V c main_v18 (((cfg0.win 5).blk t).view.emb y) = V c main_v18 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 96 + 1 * (y 1).val = (y 1).val; omega

theorem node_w6 (c : Dev nD) (t : Fin cfg0.N) : iblk0 V c 6 t = V c main_v22 := by
  obtain ⟨-, -, -, -, -, -, -, -, -, -, -, -, e0, e1, -⟩ := node_idx t
  funext y
  show V c main_v22 (((cfg0.win 6).blk t).view.emb y) = V c main_v22 y
  refine congrArg _ (funext fun a => Fin.ext ?_)
  match a with
  | ⟨0, _⟩ => show win0_6.index t (0 : Fin 2) * 96 + 1 * (y 0).val = (y 0).val; omega
  | ⟨1, _⟩ => show win0_6.index t (1 : Fin 2) * 96 + 1 * (y 1).val = (y 1).val; omega

theorem node_w7 (c : Dev nD) (t : Fin cfg0.N) : iblk0 V c 7 t = V c main_v19 := by
  obtain ⟨-, -, -, -, -, -, -, -, -, -, -, -, -, -, e0, e1, -⟩ := node_idx t
  funext y
  show V c main_v19 (((cfg0.win 7).blk t).view.emb y) = V c main_v19 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 96 + 1 * (y 1).val = (y 1).val; omega

/-- Row `p` of a row-tiled window's block at point `t` is row `5000·t + p` of its array: the row of the result's
    block at the same point. -/
theorem node_row0 (c : Dev nD) (t : Fin cfg0.N) (y : S5000x96.Idx) (k : Fin 96) :
    iblk0 V c 0 t (ix2 (y 0) k) = V c main_arg0 (ix2 ((((cfg0.win 8).blk t).view.emb y) 0) k) := by
  obtain ⟨e0, e1, -⟩ := node_idx t
  show V c main_arg0 (((cfg0.win 0).blk t).view.emb (ix2 (y 0) k)) = _
  refine congrArg _ (funext fun a => Fin.ext ?_)
  match a with
  | ⟨0, _⟩ => show win0_0.index t (0 : Fin 2) * 5000 + 1 * (y 0).val = win0_8.index t (0 : Fin 2) * 5000 + 1 * (y 0).val; omega
  | ⟨1, _⟩ => show win0_0.index t (1 : Fin 2) * 96 + 1 * k.val = k.val; omega

theorem node_row1 (c : Dev nD) (t : Fin cfg0.N) (y : S5000x96.Idx) (k : Fin 2) :
    iblk0 V c 1 t (ix2 (y 0) k) = V c main_v17 (ix2 ((((cfg0.win 8).blk t).view.emb y) 0) k) := by
  obtain ⟨-, -, e0, e1, -⟩ := node_idx t
  show V c main_v17 (((cfg0.win 1).blk t).view.emb (ix2 (y 0) k)) = _
  refine congrArg _ (funext fun a => Fin.ext ?_)
  match a with
  | ⟨0, _⟩ => show win0_1.index t (0 : Fin 2) * 5000 + 1 * (y 0).val = win0_8.index t (0 : Fin 2) * 5000 + 1 * (y 0).val; omega
  | ⟨1, _⟩ => show win0_1.index t (1 : Fin 2) * 2 + 1 * k.val = k.val; omega

theorem node_row2 (c : Dev nD) (t : Fin cfg0.N) (y : S5000x96.Idx) (k : Fin 96) :
    iblk0 V c 2 t (ix2 (y 0) k) = V c main_v11 (ix2 ((((cfg0.win 8).blk t).view.emb y) 0) k) := by
  obtain ⟨-, -, -, -, e0, e1, -⟩ := node_idx t
  show V c main_v11 (((cfg0.win 2).blk t).view.emb (ix2 (y 0) k)) = _
  refine congrArg _ (funext fun a => Fin.ext ?_)
  match a with
  | ⟨0, _⟩ => show win0_2.index t (0 : Fin 2) * 5000 + 1 * (y 0).val = win0_8.index t (0 : Fin 2) * 5000 + 1 * (y 0).val; omega
  | ⟨1, _⟩ => show win0_2.index t (1 : Fin 2) * 96 + 1 * k.val = k.val; omega

theorem node_row3 (c : Dev nD) (t : Fin cfg0.N) (y : S5000x96.Idx) (k : Fin 96) :
    iblk0 V c 3 t (ix2 (y 0) k) = V c main_v14 (ix2 ((((cfg0.win 8).blk t).view.emb y) 0) k) := by
  obtain ⟨-, -, -, -, -, -, e0, e1, -⟩ := node_idx t
  show V c main_v14 (((cfg0.win 3).blk t).view.emb (ix2 (y 0) k)) = _
  refine congrArg _ (funext fun a => Fin.ext ?_)
  match a with
  | ⟨0, _⟩ => show win0_3.index t (0 : Fin 2) * 5000 + 1 * (y 0).val = win0_8.index t (0 : Fin 2) * 5000 + 1 * (y 0).val; omega
  | ⟨1, _⟩ => show win0_3.index t (1 : Fin 2) * 96 + 1 * k.val = k.val; omega

/-- The column of an entry of the result's block is the column of its array index. -/
theorem node_col (t : Fin cfg0.N) (y : S5000x96.Idx) : ((((cfg0.win 8).blk t).view.emb y) 1 : Fin 96) = y 1 := by
  obtain ⟨-, -, -, -, -, -, -, -, -, -, -, -, -, -, -, -, e1, -⟩ := node_idx t
  refine Fin.ext ?_
  show win0_8.index t (1 : Fin 2) * 96 + 1 * (y 1).val = (y 1).val
  omega

/-- WHAT POINT `t` WRITES BACK is block `t` of `nodeArr`. -/
theorem node_flushed_eq (c : Dev nD) (t : Fin cfg0.N) :
    (dat0 V c).flushed 8 t = ((cfg0.win 8).blk t).view.read (Elt Ideal) (nodeArr V c) := by
  show (cfg0.win 8).cut (grid0.coords t) ((dat0 V c).after 8 t) = _
  rw [after0_8]
  unfold out0_8
  rw [View.canon_unit_zero origin2]
  simp only [View.ld_unit_zero (S := S5000x96) origin2, View.ld_unit_zero (S := S5000x2) origin2,
    View.ld_unit_zero (S := S96x96) origin2, View.ld_unit_zero (S := S1x96) origin2]
  rw [node_w4, node_w5, node_w6, node_w7]
  funext y
  show k0_pay1 (F := Ideal) (iblk0 V c 0 t) (iblk0 V c 1 t) (iblk0 V c 2 t) (V c main_v21) (V c main_v18) (iblk0 V c 3 t)
      (V c main_v22) (V c main_v19) y = nodeArr V c (((cfg0.win 8).blk t).view.emb y)
  have hy : y = ix2 (y 0) (y 1) := eq_ix2 (n0 := 5000) (n1 := 96) y
  refine (congrArg _ hy).trans ?_
  refine (Cert.KernelIdeal.Body.node_payload (iblk0 V c 0 t) (iblk0 V c 1 t) (iblk0 V c 2 t) (V c main_v21) (V c main_v18)
    (iblk0 V c 3 t) (V c main_v22) (V c main_v19) (y 0) (y 1)).trans ?_
  unfold nodeArr
  rw [node_col t y]
  exact nodeOutK_congr _ _ _ _ (y 0) _ (y 1) (node_row1 V c t y 0) (node_row1 V c t y 1) (node_row0 V c t y)
    (node_row2 V c t y) (node_row3 V c t y)

/-- An index of the result array is in point `t`'s block iff each coordinate is in the block's range on its axis. -/
theorem node_mem_blk (t : Fin cfg0.N) (i : S50000x96.Idx) :
    i ∈ ((cfg0.win 8).blk t).view.set ↔ ∀ a : Fin 2, win0_8.index t a * S5000x96.size a ≤ (i a).val
      ∧ (i a).val < win0_8.index t a * S5000x96.size a + S5000x96.size a := by
  show i ∈ ((View.whole main_v24).slice (win0_8.rect t)).set ↔ _
  rw [View.set_slice_whole, Rect.mem_set_unit]
  exact Iff.rfl

/-- Row `r` is in the block of the point whose row block is `r / 5000`. -/
theorem node_cover (i : S50000x96.Idx) :
    ∃ t : Fin cfg0.N, (cfg0.win 8).flush t = true ∧ i ∈ ((cfg0.win 8).blk t).view.set := by
  have hi0 : (i 0).val < 50000 := (i 0).isLt
  have hi1 : (i 1).val < 96 := (i 1).isLt
  obtain ⟨t, ht⟩ := node_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [node_mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 96 ≤ (i 1).val ∧ (i 1).val < win0_8.index t (1 : Fin 2) * 96 + 96; omega

/-- THE NODE REGION'S RESULT ARRAY after the region is `nodeArr` of the arrays the region found. -/
theorem node_final (c : Dev nD) : (dat0 V c).arrAt 8 cfg0.N = nodeArr V c :=
  (dat0 V c).arrAt_eq_of_cover 8 (nodeArr V c) (fun t _ => node_flushed_eq V c t) (node_cover)

end Cert.KernelIdeal.Blocks

end
-- ==== Proof.EdgeBlocks.lean ====
/-
  The edge region's result array as one function of the arrays the region finds.

  The region walks eighty grid points; point `t` stages rows `10000·t … 10000·t + 9999` of the edge embeddings,
  the whole weight matrix and the one-row bias, and writes back the same rows of the result.  An edge's output
  depends only on the edge's own row of the embeddings, so what point `t` writes back is block `t` of the
  whole-array function `edgeArr`; the eighty blocks tile the eight hundred thousand rows (row `r` is in block
  `r / 10000`), so the result array ends holding `edgeArr`.
-/
import proofs.«153162_j40810779247267_2_alg».proof.Proof.Gen.KernelIdeal.Frame
import proofs.«153162_j40810779247267_2_alg».proof.Proof.KernelBodies
import Idealize.ShloMosaic.Lib.Pipeline.Value

set_option maxRecDepth 16384

noncomputable section

open scoped BigOperators

namespace Cert.KernelIdeal.EdgeBlocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- THE EDGE REGION'S RESULT, as one function of the arrays the region finds: at `(r, j)` the edge layer's output
    of row `r`. -/
def edgeArr (c : Dev nD) : S800000x96.Idx → EReal := fun i =>
  edgeOut (n := 800000) (V c main_arg1) (V c main_v23) (fun j => V c main_v20 (ix2 (0 : Fin 1) j)) (i 0) (i 1)

/-- The printed index maps over the eighty points: the embeddings move with the result's row block, column block
    0; the weight and the bias stay at block (0, 0); the result's row block is the point itself. -/
theorem edge_idx : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 79 :=
  (by decide +kernel : ∀ t : Fin grid1.N, _)

/-- Every row block is some point's. -/
theorem edge_onto : ∀ q : Fin 80, ∃ t : Fin cfg1.N, win1_3.index t = ![q.val, 0] :=
  (by decide +kernel : ∀ q : Fin 80, ∃ t : Fin grid1.N, win1_3.index t = ![q.val, 0])

/-- The weight and bias windows' one block is the whole array. -/
theorem edge_w1 (c : Dev nD) (t : Fin cfg1.N) : iblk1 V c 1 t = V c main_v23 := by
  obtain ⟨-, -, e0, e1, -⟩ := edge_idx t
  funext y
  show V c main_v23 (((cfg1.win 1).blk t).view.emb y) = V c main_v23 y
  refine congrArg _ (funext fun a => Fin.ext ?_)
  match a with
  | ⟨0, _⟩ => show win1_1.index t (0 : Fin 2) * 96 + 1 * (y 0).val = (y 0).val; omega
  | ⟨1, _⟩ => show win1_1.index t (1 : Fin 2) * 96 + 1 * (y 1).val = (y 1).val; omega

theorem edge_w2 (c : Dev nD) (t : Fin cfg1.N) : iblk1 V c 2 t = V c main_v20 := by
  obtain ⟨-, -, -, -, e0, e1, -⟩ := edge_idx t
  funext y
  show V c main_v20 (((cfg1.win 2).blk t).view.emb y) = V c main_v20 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 96 + 1 * (y 1).val = (y 1).val; omega

/-- Row `p` of the embeddings' block at point `t` is row `10000·t + p` of the array: the row of the result's block
    at the same point. -/
theorem edge_row0 (c : Dev nD) (t : Fin cfg1.N) (y : S10000x96.Idx) (k : Fin 96) :
    iblk1 V c 0 t (ix2 (y 0) k) = V c main_arg1 (ix2 ((((cfg1.win 3).blk t).view.emb y) 0) k) := by
  obtain ⟨e0, e1, -⟩ := edge_idx t
  show V c main_arg1 (((cfg1.win 0).blk t).view.emb (ix2 (y 0) k)) = _
  refine congrArg _ (funext fun a => Fin.ext ?_)
  match a with
  | ⟨0, _⟩ => show win1_0.index t (0 : Fin 2) * 10000 + 1 * (y 0).val = win1_3.index t (0 : Fin 2) * 10000 + 1 * (y 0).val; omega
  | ⟨1, _⟩ => show win1_0.index t (1 : Fin 2) * 96 + 1 * k.val = k.val; omega

/-- The column of an entry of the result's block is the column of its array index. -/
theorem edge_col (t : Fin cfg1.N) (y : S10000x96.Idx) : ((((cfg1.win 3).blk t).view.emb y) 1 : Fin 96) = y 1 := by
  obtain ⟨-, -, -, -, -, -, e1, -⟩ := edge_idx t
  refine Fin.ext ?_
  show win1_3.index t (1 : Fin 2) * 96 + 1 * (y 1).val = (y 1).val
  omega

/-- WHAT POINT `t` WRITES BACK is block `t` of `edgeArr`. -/
theorem edge_flushed_eq (c : Dev nD) (t : Fin cfg1.N) :
    (dat1 V c).flushed 3 t = ((cfg1.win 3).blk t).view.read (Elt Ideal) (edgeArr V c) := by
  show (cfg1.win 3).cut (grid1.coords t) ((dat1 V c).after 3 t) = _
  rw [after1_3]
  unfold out1_3
  rw [View.canon_unit_zero origin2]
  simp only [View.ld_unit_zero (S := S10000x96) origin2, View.ld_unit_zero (S := S96x96) origin2,
    View.ld_unit_zero (S := S1x96) origin2]
  rw [edge_w1, edge_w2]
  funext y
  show k1_pay1 (F := Ideal) (iblk1 V c 0 t) (V c main_v23) (V c main_v20) y = edgeArr V c (((cfg1.win 3).blk t).view.emb y)
  have hy : y = ix2 (y 0) (y 1) := eq_ix2 (n0 := 10000) (n1 := 96) y
  refine (congrArg _ hy).trans ?_
  refine (Cert.KernelIdeal.Body.edge_payload (iblk1 V c 0 t) (V c main_v23) (V c main_v20) (y 0) (y 1)).trans ?_
  unfold edgeArr
  rw [edge_col t y]
  exact edgeOut_congr _ _ (y 0) _ (y 1) (edge_row0 V c t y)

/-- An index of the result array is in point `t`'s block iff each coordinate is in the block's range on its axis. -/
theorem edge_mem_blk (t : Fin cfg1.N) (i : S800000x96.Idx) :
    i ∈ ((cfg1.win 3).blk t).view.set ↔ ∀ a : Fin 2, win1_3.index t a * S10000x96.size a ≤ (i a).val
      ∧ (i a).val < win1_3.index t a * S10000x96.size a + S10000x96.size a := by
  show i ∈ ((View.whole main_v25).slice (win1_3.rect t)).set ↔ _
  rw [View.set_slice_whole, Rect.mem_set_unit]
  exact Iff.rfl

/-- Row `r` is in the block of the point whose row block is `r / 10000`. -/
theorem edge_cover (i : S800000x96.Idx) :
    ∃ t : Fin cfg1.N, (cfg1.win 3).flush t = true ∧ i ∈ ((cfg1.win 3).blk t).view.set := by
  have hi0 : (i 0).val < 800000 := (i 0).isLt
  have hi1 : (i 1).val < 96 := (i 1).isLt
  obtain ⟨t, ht⟩ := edge_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [edge_mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 96 ≤ (i 1).val ∧ (i 1).val < win1_3.index t (1 : Fin 2) * 96 + 96; omega

/-- THE EDGE REGION'S RESULT ARRAY after the region is `edgeArr` of the arrays the region found. -/
theorem edge_final (c : Dev nD) : (dat1 V c).arrAt 3 cfg1.N = edgeArr V c :=
  (dat1 V c).arrAt_eq_of_cover 3 (edgeArr V c) (fun t _ => edge_flushed_eq V c t) (edge_cover)

end Cert.KernelIdeal.EdgeBlocks

end
-- ==== Proof.LibScatterCount.lean ====
/-
  Counting with an integer scatter and with a float scatter.

  A scatter whose body is an addition, run over the update indices one after the other, leaves at each element
  of the operand its old value plus the sum of the updates that land on it: this holds in every commutative
  monoid, by induction along the list of updates (`scatter_add_apply`).  Scattering the integer `1` from every
  update into a zero array of 32-bit words therefore leaves, at element `i`, the number of updates landing on
  `i`, as a word; that number is at most the number of updates, so below `2^31` whenever there are fewer than
  `2^31` updates, and the word read as a signed integer is the number itself.  Converted exactly to a float it is
  the extended real `#{j | update j lands on i}`, which is also what the float scatter-add of ones into zeros
  holds over the extended reals: `0 + ∑_{j lands on i} 1` (`sitofp_scatter_ones`).
-/
import Idealize.ShloMosaic.PureOps.Ideal
import Idealize.ShloMosaic.PureOps.Ideal.Laws
import Idealize.ShloMosaic.PureOps.ShapeOps
import Idealize.ShloMosaic.Lib.IdealHost
import Mathlib.Data.BitVec

noncomputable section

open scoped BigOperators

namespace Cert.LibScatterCount

open Idealize.ShloMosaic

variable {s si u : Shape} {w : Nat}

/-- A left fold whose step adds `c n i` at every `i` adds up the `c n i` along the list. -/
theorem foldl_add_apply {α ι κ : Type} [AddCommMonoid α] (step : (ι → α) → κ → (ι → α)) (c : κ → ι → α)
    (hstep : ∀ r n i, step r n i = r i + c n i) (L : List κ) (x : ι → α) (i : ι) :
    (L.foldl step x) i = x i + (L.map fun n => c n i).sum := by
  induction L generalizing x with
  | nil => simp
  | cons a L ih => rw [List.foldl_cons, ih, hstep, List.map_cons, List.sum_cons, add_assoc]

/-- AN ADDING SCATTER AT AN ELEMENT: the operand's element plus the sum of the updates whose result index is that
    element (an update landing outside the operand contributes nothing). -/
theorem scatter_add_apply {α : Type} [AddCommMonoid α] (d : ScatterDims s si u) (x : s.Idx → α) (idx : IVec si w)
    (upd : u.Idx → α) (i : s.Idx) :
    Host.scatter d (fun a b => a + b) x idx upd i
      = x i + ∑ j ∈ Finset.univ.filter (fun j => d.resultIdx? j idx = some i), upd j := by
  classical
  unfold Host.scatter
  rw [foldl_add_apply _ (fun n i => if d.resultIdx? (u.rowMajor.symm n) idx = some i then upd (u.rowMajor.symm n) else 0)
    (fun r n i => ?_)]
  · congr 1
    rw [← Fin.sum_univ_def, Finset.sum_filter,
      ← Equiv.sum_comp u.rowMajor.symm (fun j => if d.resultIdx? j idx = some i then upd j else 0)]
  · dsimp only
    cases h : d.resultIdx? (u.rowMajor.symm n) idx with
    | none => simp
    | some i0 =>
      by_cases hi : i = i0
      · subst hi; simp
      · have : ¬ i0 = i := fun e => hi e.symm
        simp [hi, this]

/-- The number of updates landing on `i`. -/
def hits (d : ScatterDims s si u) (idx : IVec si w) (i : s.Idx) : Nat :=
  (Finset.univ.filter (fun j : u.Idx => d.resultIdx? j idx = some i)).card

theorem hits_le (d : ScatterDims s si u) (idx : IVec si w) (i : s.Idx) : hits d idx i ≤ u.numel := by
  unfold hits
  calc _ ≤ (Finset.univ : Finset u.Idx).card := Finset.card_filter_le _ _
    _ = u.numel := by rw [Finset.card_univ, Shape.card_idx]

/-- Scattering the word `1` from every update into zeros leaves the number of hits, as a word. -/
theorem scatter_ones_word (d : ScatterDims s si u) (idx : IVec si w) (i : s.Idx) :
    Host.scatter d IntOp.addi (fun _ => 0#32) idx (fun _ => 1#32) i = BitVec.ofNat 32 (hits d idx i) := by
  have h := scatter_add_apply (α := BitVec 32) d (fun _ => 0#32) idx (fun _ => 1#32) i
  have e : (IntOp.addi : BitVec 32 → BitVec 32 → BitVec 32) = fun a b => a + b := rfl
  rw [e, h, Finset.sum_const, hits]
  simp [BitVec.natCast_eq_ofNat]

/-- THE COUNT, EXACTLY CONVERTED, IS THE FLOAT SUM OF ONES: with fewer than `2^31` updates, the integer scatter of
    ones into zeros, read as a signed integer and converted exactly, is the float scatter-add of ones into zeros
    over the extended reals. -/
theorem sitofp_scatter_ones (d : ScatterDims s si u) (idx : IVec si w) (hN : u.numel < 2 ^ 31) (i : s.Idx) :
    (((Host.scatter d IntOp.addi (fun _ => 0#32) idx (fun _ => 1#32) i).toInt : ℝ) : EReal)
      = Ideal.hostScatterAdd d (fun _ => Ideal.ofBits .f32 0x00000000#32) idx (fun _ => Ideal.ofBits .f32 0x3F800000#32) i := by
  have hle := hits_le d idx i
  have hint : (BitVec.ofNat 32 (hits d idx i)).toInt = (hits d idx i : Int) := by
    rw [BitVec.toInt_eq_toNat_cond, BitVec.toNat_ofNat]
    have hm : hits d idx i % 2 ^ 32 = hits d idx i := Nat.mod_eq_of_lt (by omega)
    rw [hm, if_pos (by omega)]
  rw [scatter_ones_word, hint]
  unfold Ideal.hostScatterAdd
  rw [Ideal.ofBits_zero_f32, Ideal.ofBits_one_f32, zero_add, Finset.sum_const, hits]
  simp

end Cert.LibScatterCount

end
-- ==== Proof.HostStage.lean ====
/-
  What the two regions find in the arrays they read, in terms of the launch memory.

  Before the regions the host computes, for each node, its in-degree and out-degree by scattering the integer `1`
  from every edge (by destination, by source) into zeros and converting the counts to floats, packs the two as the
  columns of a two-column array, sums the edge embeddings by destination and by source, views each bias as one row,
  and changes the weights' float format (the identity over the extended reals).  A degree so counted is the float
  scatter-add of ones: there are 800000 edges, fewer than `2^31`, so no count wraps.
-/
import proofs.«153162_j40810779247267_2_alg».proof.Proof.Gen.KernelIdeal.Frame
import proofs.«153162_j40810779247267_2_alg».proof.Proof.LibScatterCount
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal

set_option maxRecDepth 16384

noncomputable section

namespace Cert.KernelIdeal.HostStage

open Cert.KernelIdeal Cert.KernelIdeal.Gen
open Idealize.ShloMosaic Idealize.ShloMosaic.TcCoe Idealize.ShloMosaic.ValueIdx Idealize.SL.Sem Idealize.ShloMosaic.StableHlo

/-- The degrees as the reference counts them: the float scatter-add of ones, by the index array `idx`, into zeros. -/
def degF (idx : S800000.Idx → BitVec 32) : S50000.Idx → EReal :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

/-- The degrees as the kernel's host code counts them: the integer scatter of ones into zeros, converted. -/
def degI (idx : S800000.Idx → BitVec 32) : S50000.Idx → EReal :=
  sitofp (F := Ideal) .f32 (Host.scatter scatter_S50000_S800000x1_S800000_n_0_0_1 IntOp.addi
    (broadcastInDim S50000 ![] bcast_S_S50000 (constantI S_ 32 0#32))
    (broadcastInDim S800000x1 ![0] bcast_S800000_S800000x1_0 idx)
    (broadcastInDim S800000 ![] bcast_S_S800000 (constantI S_ 32 1#32)))

/-- There are 800000 edges, fewer than `2^31`. -/
theorem edges_lt : S800000.numel < 2 ^ 31 := by
  rw [show S800000.numel = 800000 from Shape.numel_rank1 _]
  norm_num

/-! The constant arrays both counts start from and add up, as constant functions. -/

theorem zerosI : broadcastInDim S50000 ![] bcast_S_S50000 (constantI S_ 32 0#32) = fun _ => 0#32 := rfl
theorem onesI : broadcastInDim S800000 ![] bcast_S_S800000 (constantI S_ 32 1#32) = fun _ => 1#32 := rfl
theorem zerosF : broadcastInDim S50000 ![] bcast_S_S50000 (constant (F := Ideal) S_ .f32 0x00000000#32)
    = fun _ => Ideal.ofBits .f32 0x00000000#32 := rfl
theorem onesF : broadcastInDim S800000 ![] bcast_S_S800000 (constant (F := Ideal) S_ .f32 0x3F800000#32)
    = fun _ => Ideal.ofBits .f32 0x3F800000#32 := rfl

/-- An exact conversion of integer words, at an entry: the word read signed, as an extended real. -/
theorem sitofp_ideal_apply {s : Shape} (X : s.Idx → BitVec 32) (i : s.Idx) :
    (sitofp (F := Ideal) .f32 X : s.Idx → EReal) i = (((X i).toInt : ℝ) : EReal) := rfl

/-- The host's float scatter-add over the extended reals is the exact sum. -/
theorem scatterAdd_ideal {s si u : Shape} {w : Nat} (d : ScatterDims s si u) (x : s.Idx → EReal) (idx : IVec si w)
    (upd : u.Idx → EReal) : Host.scatterAdd (F := Ideal) (φ := .f32) d x idx upd = Ideal.hostScatterAdd d x idx upd := rfl

/-- The integer count at a node, converted: the word the scatter leaves there, read signed, as an extended real. -/
theorem degI_apply (idx : S800000.Idx → BitVec 32) (i : S50000.Idx) :
    degI idx i = (((Host.scatter scatter_S50000_S800000x1_S800000_n_0_0_1 IntOp.addi (fun _ => 0#32)
      (broadcastInDim S800000x1 ![0] bcast_S800000_S800000x1_0 idx) (fun _ => 1#32) i).toInt : ℝ) : EReal) := by
  unfold degI
  rw [zerosI, onesI]
  exact sitofp_ideal_apply _ i

/-- The float count at a node: the scatter-add of ones into zeros over the extended reals. -/
theorem degF_apply (idx : S800000.Idx → BitVec 32) (i : S50000.Idx) :
    degF idx i = Ideal.hostScatterAdd scatter_S50000_S800000x1_S800000_n_0_0_1 (fun _ => Ideal.ofBits .f32 0x00000000#32)
      (broadcastInDim S800000x1 ![0] bcast_S800000_S800000x1_0 idx) (fun _ => Ideal.ofBits .f32 0x3F800000#32) i := by
  unfold degF
  rw [zerosF, onesF, scatterAdd_ideal]

/-- The two counts agree: 800000 edges cannot wrap a 32-bit count. -/
theorem degI_eq_degF (idx : S800000.Idx → BitVec 32) : degI idx = degF idx := by
  funext i
  have h1 := degI_apply idx i
  have h2 := degF_apply idx i
  have h3 := Cert.LibScatterCount.sitofp_scatter_ones scatter_S50000_S800000x1_S800000_n_0_0_1
    (broadcastInDim S800000x1 ![0] bcast_S800000_S800000x1_0 idx) edges_lt i
  exact h1.trans (h3.trans h2.symm)

/-- The sum of the edge embeddings over the edges whose index (by `idx`) is each node. -/
def edgeSum (idx : S800000.Idx → BitVec 32) (e : S800000x96.Idx → EReal) : S50000x96.Idx → EReal :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 idx) e

variable (m : (ℓ : Loc nD τ sig) → Buf (Elt Ideal) ℓ) (ρ : Dev nD → PrngReg)

/-! ## What region 0 finds -/

theorem V1_node (c : Dev nD) : V1 m ρ c main_arg0 = m ((c : Thread nD τ).loc main_arg0) := by
  dsimp only [V1, W1, hostOps0]; after_results

theorem V1_deg (c : Dev nD) : (V1 m ρ c main_v17 : S50000x2.Idx → EReal)
    = concatenate S50000x2 1 [⟨S50000x1, broadcastInDim S50000x1 ![0] bcast_S50000_S50000x1_0 (degI (m ((c : Thread nD τ).loc main_arg3)))⟩,
        ⟨S50000x1, broadcastInDim S50000x1 ![0] bcast_S50000_S50000x1_0 (degI (m ((c : Thread nD τ).loc main_arg2)))⟩]
        concatenates_S50000x1_S50000x1_S50000x2_d1 := by
  dsimp only [V1, W1, hostOps0]; after_results; rfl

theorem V1_esIn (c : Dev nD) : (V1 m ρ c main_v11 : S50000x96.Idx → EReal)
    = edgeSum (m ((c : Thread nD τ).loc main_arg3)) (m ((c : Thread nD τ).loc main_arg1)) := by
  dsimp only [V1, W1, hostOps0]; after_results; rfl

theorem V1_esOut (c : Dev nD) : (V1 m ρ c main_v14 : S50000x96.Idx → EReal)
    = edgeSum (m ((c : Thread nD τ).loc main_arg2)) (m ((c : Thread nD τ).loc main_arg1)) := by
  dsimp only [V1, W1, hostOps0]; after_results; rfl

theorem V1_wO (c : Dev nD) : (V1 m ρ c main_v21 : S96x96.Idx → EReal) = m ((c : Thread nD τ).loc main_arg4) := by
  dsimp only [V1, W1, hostOps0]; after_results; rfl

theorem V1_wI (c : Dev nD) : (V1 m ρ c main_v22 : S96x96.Idx → EReal) = m ((c : Thread nD τ).loc main_arg6) := by
  dsimp only [V1, W1, hostOps0]; after_results; rfl

theorem V1_bO (c : Dev nD) : (V1 m ρ c main_v18 : S1x96.Idx → EReal)
    = shapeCast S1x96 (m ((c : Thread nD τ).loc main_arg5)) shapeCasts_S96_S1x96 := by
  dsimp only [V1, W1, hostOps0]; after_results; rfl

theorem V1_bI (c : Dev nD) : (V1 m ρ c main_v19 : S1x96.Idx → EReal)
    = shapeCast S1x96 (m ((c : Thread nD τ).loc main_arg7)) shapeCasts_S96_S1x96 := by
  dsimp only [V1, W1, hostOps0]; after_results; rfl

/-- A degree column read at row `r`. -/
theorem degCol_apply (d : S50000.Idx → EReal) (r : Fin 50000) :
    broadcastInDim S50000x1 ![0] bcast_S50000_S50000x1_0 d (ix2 r (0 : Fin 1)) = d (ix1 r) :=
  broadcastInDim_apply _ bcast_S50000_S50000x1_0 d (ix2 r (0 : Fin 1)) (ix1 r) (fun a => match a with
    | ⟨0, _⟩ => by show r.val = if (50000 : Nat) = 1 then 0 else r.val; rw [if_neg (by decide)])

/-- Column 0 of the packed degrees is the in-degree, as the reference counts it. -/
theorem V1_degIn (c : Dev nD) (r : Fin 50000) :
    (V1 m ρ c main_v17 : S50000x2.Idx → EReal) (ix2 r (0 : Fin 2)) = degF (m ((c : Thread nD τ).loc main_arg3)) (ix1 r) := by
  rw [V1_deg, concatenate_pair_apply_left (t := S50000x2) (s₁ := S50000x1) (s₂ := S50000x1) (1 : Fin 2) _ _ concatenates_S50000x1_S50000x1_S50000x2_d1 (ix2 r (0 : Fin 2)) rfl
    (ix2 r (0 : Fin 1)) (fun b => by match b with | ⟨0, _⟩ => rfl | ⟨1, _⟩ => rfl), degCol_apply, degI_eq_degF]

/-- Column 1 of the packed degrees is the out-degree, as the reference counts it. -/
theorem V1_degOut (c : Dev nD) (r : Fin 50000) :
    (V1 m ρ c main_v17 : S50000x2.Idx → EReal) (ix2 r (1 : Fin 2)) = degF (m ((c : Thread nD τ).loc main_arg2)) (ix1 r) := by
  rw [V1_deg, concatenate_pair_apply_right (t := S50000x2) (s₁ := S50000x1) (s₂ := S50000x1) (1 : Fin 2) _ _ concatenates_S50000x1_S50000x1_S50000x2_d1 (ix2 r (1 : Fin 2)) rfl rfl
    (ix2 r (0 : Fin 1)) (fun b hb => by match b with | ⟨0, _⟩ => rfl | ⟨1, _⟩ => exact absurd rfl hb) rfl, degCol_apply, degI_eq_degF]

/-- A bias viewed as one row, read at column `j`. -/
theorem V1_bO_apply (c : Dev nD) (j : Fin 96) :
    (V1 m ρ c main_v18 : S1x96.Idx → EReal) (ix2 (0 : Fin 1) j) = m ((c : Thread nD τ).loc main_arg5) (ix1 j) := by
  rw [V1_bO]; exact shapeCast_a_1a_apply _ shapeCasts_S96_S1x96 0 j

theorem V1_bI_apply (c : Dev nD) (j : Fin 96) :
    (V1 m ρ c main_v19 : S1x96.Idx → EReal) (ix2 (0 : Fin 1) j) = m ((c : Thread nD τ).loc main_arg7) (ix1 j) := by
  rw [V1_bI]; exact shapeCast_a_1a_apply _ shapeCasts_S96_S1x96 0 j

/-! ## What region 1 finds: none of its inputs is an array of region 0, so they are as the host left them -/

theorem V2_edge (c : Dev nD) : V2 m ρ c main_arg1 = m ((c : Thread nD τ).loc main_arg1) := by
  refine (W2_of_ne m ρ c main_arg1 (by decide)).trans ?_
  dsimp only [W1, hostOps0]; after_results

theorem V2_wRel (c : Dev nD) : (V2 m ρ c main_v23 : S96x96.Idx → EReal) = m ((c : Thread nD τ).loc main_arg8) := by
  refine (W2_of_ne m ρ c main_v23 (by decide)).trans ?_
  dsimp only [W1, hostOps0]; after_results; rfl

theorem V2_bRel (c : Dev nD) : (V2 m ρ c main_v20 : S1x96.Idx → EReal)
    = shapeCast S1x96 (m ((c : Thread nD τ).loc main_arg9)) shapeCasts_S96_S1x96 := by
  refine (W2_of_ne m ρ c main_v20 (by decide)).trans ?_
  dsimp only [W1, hostOps0]; after_results; rfl

theorem V2_bRel_apply (c : Dev nD) (j : Fin 96) :
    (V2 m ρ c main_v20 : S1x96.Idx → EReal) (ix2 (0 : Fin 1) j) = m ((c : Thread nD τ).loc main_arg9) (ix1 j) := by
  rw [V2_bRel]; exact shapeCast_a_1a_apply _ shapeCasts_S96_S1x96 0 j

end Cert.KernelIdeal.HostStage

end
-- ==== Proof.RefRead.lean ====
/-
  The reference's two results at an entry, in the specification's terms.

  Read one operation at a time, the reference's node result at `(r, j)` is
  `(∑ₖ (dIn r · x (r, k) − sIn (r, k)) · W_O (k, j) + b_O j) + (∑ₖ (dOut r · x (r, k) − sOut (r, k)) · W_I (k, j) + b_I j)`
  with `dIn`, `dOut` the float scatter-adds of ones by destination and by source and `sIn`, `sOut` the scatter-adds
  of the edge embeddings: the degree column broadcast along the features reads the degree of its row, a bias
  broadcast down the rows reads its column, the two matrix products are sums over the shared coordinate.  Its edge
  result at `(r, j)` is `∑ₖ e (r, k) · W (k, j) + b j`.
-/
import proofs.«153162_j40810779247267_2_alg».proof.Proof.Gen.ReferenceIdeal.Read
import proofs.«153162_j40810779247267_2_alg».proof.Proof.Spec

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-! The composed index functions of the generated read lemmas, as coordinates. -/

theorem lrow (r : Fin 50000) (j k : Fin 96) : lidx_main_v21 (ix2 r j) k = ix2 r k :=
  funext fun a => Fin.ext (by match a with | ⟨0, _⟩ => rfl | ⟨1, _⟩ => rfl)
theorem rcol (r : Fin 50000) (j k : Fin 96) : ridx_main_v21 (ix2 r j) k = ix2 k j :=
  funext fun a => Fin.ext (by match a with | ⟨0, _⟩ => rfl | ⟨1, _⟩ => rfl)
theorem lrow' (r : Fin 50000) (j k : Fin 96) : lidx_main_v25 (ix2 r j) k = ix2 r k :=
  funext fun a => Fin.ext (by match a with | ⟨0, _⟩ => rfl | ⟨1, _⟩ => rfl)
theorem rcol' (r : Fin 50000) (j k : Fin 96) : ridx_main_v25 (ix2 r j) k = ix2 k j :=
  funext fun a => Fin.ext (by match a with | ⟨0, _⟩ => rfl | ⟨1, _⟩ => rfl)
theorem degIn_idx (r : Fin 50000) (k : Fin 96) : idx_main_v7 (idx_main_v8 (ix2 r k)) = ix1 r :=
  funext fun a => Fin.ext (by match a with | ⟨0, _⟩ => rfl)
theorem degOut_idx (r : Fin 50000) (k : Fin 96) : idx_main_v17 (idx_main_v18 (ix2 r k)) = ix1 r :=
  funext fun a => Fin.ext (by match a with | ⟨0, _⟩ => rfl)
theorem biasO_idx (r : Fin 50000) (j : Fin 96) : idx_main_v22 (idx_main_v23 (ix2 r j)) = ix1 j :=
  funext fun a => Fin.ext (by match a with | ⟨0, _⟩ => rfl)
theorem biasI_idx (r : Fin 50000) (j : Fin 96) : idx_main_v26 (idx_main_v27 (ix2 r j)) = ix1 j :=
  funext fun a => Fin.ext (by match a with | ⟨0, _⟩ => rfl)
theorem elrow (r : Fin 800000) (j k : Fin 96) : lidx_main_v30 (ix2 r j) k = ix2 r k :=
  funext fun a => Fin.ext (by match a with | ⟨0, _⟩ => rfl | ⟨1, _⟩ => rfl)
theorem ercol (r : Fin 800000) (j k : Fin 96) : ridx_main_v30 (ix2 r j) k = ix2 k j :=
  funext fun a => Fin.ext (by match a with | ⟨0, _⟩ => rfl | ⟨1, _⟩ => rfl)
theorem biasE_idx (r : Fin 800000) (j : Fin 96) : idx_main_v31 (idx_main_v32 (ix2 r j)) = ix1 j :=
  funext fun a => Fin.ext (by match a with | ⟨0, _⟩ => rfl)

/-- The reference's aggregated message over the incoming edges, at `(r, k)`. -/
theorem msgIn_apply (x0 : (⟨S50000x96, .f32⟩ : BufTy).Contents (Elt Ideal)) (x1 : (⟨S800000x96, .f32⟩ : BufTy).Contents (Elt Ideal))
    (x3 : (⟨S800000, .i32⟩ : BufTy).Contents (Elt Ideal)) (r : Fin 50000) (k : Fin 96) :
    val_main_v10 (F := Ideal) x0 x1 x3 (ix2 r k)
      = val_main_v3 (F := Ideal) x3 (ix1 r) * x0 (ix2 r k) - val_main_v6 (F := Ideal) x1 x3 (ix2 r k) := by
  rw [val_main_v10_apply, val_main_v9_apply, val_main_v8_apply, val_main_v7_apply, degIn_idx]
  rfl

/-- The reference's aggregated message over the outgoing edges, at `(r, k)`. -/
theorem msgOut_apply (x0 : (⟨S50000x96, .f32⟩ : BufTy).Contents (Elt Ideal)) (x1 : (⟨S800000x96, .f32⟩ : BufTy).Contents (Elt Ideal))
    (x2 : (⟨S800000, .i32⟩ : BufTy).Contents (Elt Ideal)) (r : Fin 50000) (k : Fin 96) :
    val_main_v20 (F := Ideal) x0 x1 x2 (ix2 r k)
      = val_main_v13 (F := Ideal) x2 (ix1 r) * x0 (ix2 r k) - val_main_v16 (F := Ideal) x1 x2 (ix2 r k) := by
  rw [val_main_v20_apply, val_main_v19_apply, val_main_v18_apply, val_main_v17_apply, degOut_idx]
  rfl

/-- THE REFERENCE'S NODE RESULT at `(r, j)`. -/
theorem node_apply (x0 : (⟨S50000x96, .f32⟩ : BufTy).Contents (Elt Ideal)) (x1 : (⟨S800000x96, .f32⟩ : BufTy).Contents (Elt Ideal))
    (x2 x3 : (⟨S800000, .i32⟩ : BufTy).Contents (Elt Ideal)) (x4 : (⟨S96x96, .f32⟩ : BufTy).Contents (Elt Ideal))
    (x5 : (⟨S96, .f32⟩ : BufTy).Contents (Elt Ideal)) (x6 : (⟨S96x96, .f32⟩ : BufTy).Contents (Elt Ideal))
    (x7 : (⟨S96, .f32⟩ : BufTy).Contents (Elt Ideal)) (r : Fin 50000) (j : Fin 96) :
    val_main_v29 (F := Ideal) x0 x1 x2 x3 x4 x5 x6 x7 (ix2 r j)
      = nodeOutR (n := 50000) (fun r => val_main_v3 (F := Ideal) x3 (ix1 r)) (fun r => val_main_v13 (F := Ideal) x2 (ix1 r))
          x0 (val_main_v6 (F := Ideal) x1 x3) (val_main_v16 (F := Ideal) x1 x2) x4 x6
          (fun j => x5 (ix1 j)) (fun j => x7 (ix1 j)) r j := by
  rw [val_main_v29_apply]
  rw [val_main_v24_apply]
  rw [val_main_v28_apply]
  rw [val_main_v21_apply]
  rw [val_main_v25_apply]
  rw [val_main_v23_apply]
  rw [val_main_v22_apply]
  rw [val_main_v27_apply]
  rw [val_main_v26_apply]
  simp only [lrow, rcol, lrow', rcol', biasO_idx, biasI_idx, msgIn_apply, msgOut_apply, Ideal.addf_def]
  rfl

/-- THE REFERENCE'S EDGE RESULT at `(r, j)`. -/
theorem edge_apply (x1 : (⟨S800000x96, .f32⟩ : BufTy).Contents (Elt Ideal)) (x8 : (⟨S96x96, .f32⟩ : BufTy).Contents (Elt Ideal))
    (x9 : (⟨S96, .f32⟩ : BufTy).Contents (Elt Ideal)) (r : Fin 800000) (j : Fin 96) :
    val_main_v33 (F := Ideal) x1 x8 x9 (ix2 r j) = edgeOut (n := 800000) x1 x8 (fun j => x9 (ix1 j)) r j := by
  rw [val_main_v33_apply, val_main_v30_apply, val_main_v32_apply, val_main_v31_apply]
  simp only [elrow, ercol, biasE_idx, Ideal.addf_def]
  rfl

end Cert.ReferenceIdeal.RefValue

end
-- ==== Proof.Bridge.lean ====
/-
  The two programs compute one function of the arguments.

  From the launch memory the kernel's node result is, at `(r, j)`, the layer's output added up from the left over
  the arrays the host prepared; the reference's is the same output added up as two biased projections.  The
  prepared arrays are the reference's own stages — the degrees by the counting lemma, the edge sums, weights and
  biases literally — so the two results differ by one use of associativity.  The edge results are literally equal.
-/
import proofs.«153162_j40810779247267_2_alg».proof.Proof.NodeBlocks
import proofs.«153162_j40810779247267_2_alg».proof.Proof.EdgeBlocks
import proofs.«153162_j40810779247267_2_alg».proof.Proof.HostStage
import proofs.«153162_j40810779247267_2_alg».proof.Proof.RefRead

set_option maxRecDepth 16384

noncomputable section

namespace Cert.Bridge

open Idealize.ShloMosaic Idealize.ShloMosaic.TcCoe Idealize.ShloMosaic.ValueIdx Idealize.SL.Sem
open Cert.Spec Cert.KernelIdeal.HostStage

variable (m : (ℓ : Loc Cert.KernelIdeal.nD Cert.KernelIdeal.τ Cert.KernelIdeal.sig) → Buf (Elt Ideal) ℓ)
  (ρ : Dev Cert.KernelIdeal.nD → PrngReg)

/-! The two printed programs name the same scatter dimension numbers. -/

theorem countDims : Cert.ReferenceIdeal.scatter_S50000_S800000x1_S800000_n_0_0_1
    = Cert.KernelIdeal.scatter_S50000_S800000x1_S800000_n_0_0_1 := rfl
theorem sumDims : Cert.ReferenceIdeal.scatter_S50000x96_S800000x1_S800000x96_1_0_0_1
    = Cert.KernelIdeal.scatter_S50000x96_S800000x1_S800000x96_1_0_0_1 := rfl

/-- The reference's degree stages are the float counts. -/
theorem refDeg_in (x3 : Cert.KernelIdeal.S800000.Idx → BitVec 32) :
    Cert.ReferenceIdeal.Read.val_main_v3 (F := Ideal) x3 = degF x3 := by
  unfold Cert.ReferenceIdeal.Read.val_main_v3 Cert.ReferenceIdeal.Read.val_main_v1 Cert.ReferenceIdeal.Read.val_main_v2
    Cert.ReferenceIdeal.Read.val_main_v0 Cert.ReferenceIdeal.Read.val_main_cst Cert.ReferenceIdeal.Read.val_main_cst_0 degF
  rw [countDims]
theorem refDeg_out (x2 : Cert.KernelIdeal.S800000.Idx → BitVec 32) :
    Cert.ReferenceIdeal.Read.val_main_v13 (F := Ideal) x2 = degF x2 := by
  unfold Cert.ReferenceIdeal.Read.val_main_v13 Cert.ReferenceIdeal.Read.val_main_v11 Cert.ReferenceIdeal.Read.val_main_v12
    Cert.ReferenceIdeal.Read.val_main_v0 Cert.ReferenceIdeal.Read.val_main_cst Cert.ReferenceIdeal.Read.val_main_cst_2 degF
  rw [countDims]
/-- The reference's edge-sum stages are the kernel's host code's. -/
theorem refSum_in (x1 : Cert.KernelIdeal.S800000x96.Idx → EReal) (x3 : Cert.KernelIdeal.S800000.Idx → BitVec 32) :
    Cert.ReferenceIdeal.Read.val_main_v6 (F := Ideal) x1 x3 = edgeSum x3 x1 := by
  unfold Cert.ReferenceIdeal.Read.val_main_v6 Cert.ReferenceIdeal.Read.val_main_v4 Cert.ReferenceIdeal.Read.val_main_v5
    Cert.ReferenceIdeal.Read.val_main_cst_1 edgeSum
  rw [sumDims]
theorem refSum_out (x1 : Cert.KernelIdeal.S800000x96.Idx → EReal) (x2 : Cert.KernelIdeal.S800000.Idx → BitVec 32) :
    Cert.ReferenceIdeal.Read.val_main_v16 (F := Ideal) x1 x2 = edgeSum x2 x1 := by
  unfold Cert.ReferenceIdeal.Read.val_main_v16 Cert.ReferenceIdeal.Read.val_main_v14 Cert.ReferenceIdeal.Read.val_main_v15
    Cert.ReferenceIdeal.Read.val_main_cst_3 edgeSum
  rw [sumDims]

/-! The arrays the node region finds, read along a row or a column, as functions of the launch arguments. -/

theorem degIn_fun (c : Dev Cert.KernelIdeal.nD) :
    (fun r : Fin 50000 => (Cert.KernelIdeal.Gen.V1 m ρ c Cert.KernelIdeal.main_v17 : Cert.KernelIdeal.S50000x2.Idx → EReal) (ix2 r (0 : Fin 2)))
      = fun r => degF (m ((c.tc : Thread Cert.KernelIdeal.nD Cert.KernelIdeal.τ).loc Cert.KernelIdeal.main_arg3)) (ix1 r) := funext (V1_degIn m ρ c)
theorem degOut_fun (c : Dev Cert.KernelIdeal.nD) :
    (fun r : Fin 50000 => (Cert.KernelIdeal.Gen.V1 m ρ c Cert.KernelIdeal.main_v17 : Cert.KernelIdeal.S50000x2.Idx → EReal) (ix2 r (1 : Fin 2)))
      = fun r => degF (m ((c.tc : Thread Cert.KernelIdeal.nD Cert.KernelIdeal.τ).loc Cert.KernelIdeal.main_arg2)) (ix1 r) := funext (V1_degOut m ρ c)
theorem biasO_fun (c : Dev Cert.KernelIdeal.nD) :
    (fun j : Fin 96 => (Cert.KernelIdeal.Gen.V1 m ρ c Cert.KernelIdeal.main_v18 : Cert.KernelIdeal.S1x96.Idx → EReal) (ix2 (0 : Fin 1) j))
      = fun j => (m ((c.tc : Thread Cert.KernelIdeal.nD Cert.KernelIdeal.τ).loc Cert.KernelIdeal.main_arg5)) (ix1 j) := funext (V1_bO_apply m ρ c)
theorem biasI_fun (c : Dev Cert.KernelIdeal.nD) :
    (fun j : Fin 96 => (Cert.KernelIdeal.Gen.V1 m ρ c Cert.KernelIdeal.main_v19 : Cert.KernelIdeal.S1x96.Idx → EReal) (ix2 (0 : Fin 1) j))
      = fun j => (m ((c.tc : Thread Cert.KernelIdeal.nD Cert.KernelIdeal.τ).loc Cert.KernelIdeal.main_arg7)) (ix1 j) := funext (V1_bI_apply m ρ c)
theorem biasRel_fun (c : Dev Cert.KernelIdeal.nD) :
    (fun j : Fin 96 => (Cert.KernelIdeal.Gen.V2 m ρ c Cert.KernelIdeal.main_v20 : Cert.KernelIdeal.S1x96.Idx → EReal) (ix2 (0 : Fin 1) j))
      = fun j => (m ((c.tc : Thread Cert.KernelIdeal.nD Cert.KernelIdeal.τ).loc Cert.KernelIdeal.main_arg9)) (ix1 j) := funext (V2_bRel_apply m ρ c)

/-- THE NODE RESULTS AGREE: the reference's node result of the launch arguments is the kernel's node array. -/
theorem node_eq (c : Dev Cert.KernelIdeal.nD) :
    Cert.ReferenceIdeal.Read.val_main_v29 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Blocks.nodeArr (Cert.KernelIdeal.Gen.V1 m ρ) c := by
  funext i
  obtain ⟨r, j, rfl⟩ : ∃ (r : Fin 50000) (j : Fin 96), i = ix2 r j := ⟨i 0, i 1, eq_ix2 i⟩
  rw [Cert.ReferenceIdeal.RefValue.node_apply, refDeg_in, refDeg_out, refSum_in, refSum_out]
  show _ = nodeOutK (n := 50000) _ _ _ _ _ _ _ _ _ r j
  rw [degIn_fun, degOut_fun, biasO_fun, biasI_fun, V1_node, V1_esIn, V1_esOut, V1_wO, V1_wI]
  exact (nodeOutK_eq_nodeOutR _ _ _ _ _ _ _ _ _ r j).symm

/-- THE EDGE RESULTS AGREE. -/
theorem edge_eq (c : Dev Cert.KernelIdeal.nD) :
    Cert.ReferenceIdeal.Read.val_main_v33 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
      = Cert.KernelIdeal.EdgeBlocks.edgeArr (Cert.KernelIdeal.Gen.V2 m ρ) c := by
  funext i
  obtain ⟨r, j, rfl⟩ : ∃ (r : Fin 800000) (j : Fin 96), i = ix2 r j := ⟨i 0, i 1, eq_ix2 i⟩
  rw [Cert.ReferenceIdeal.RefValue.edge_apply]
  show _ = edgeOut (n := 800000) _ _ _ r j
  rw [biasRel_fun, V2_edge, V2_wRel]

end Cert.Bridge

end
-- ==== Proof.lean ====
/-
  Two message-passing layers of a graph network — one over the nodes, one over the edges — computed by two
  pipelined kernels around host-side scatter-adds, against a plain array program.

  Over the extended reals both programs compute, for node `r` and feature `j`,
  `∑ₖ (dIn r · x (r, k) − sIn (r, k)) · W_O (k, j) + b_O j + ∑ₖ (dOut r · x (r, k) − sOut (r, k)) · W_I (k, j) + b_I j`
  and, for edge `r`, `∑ₖ e (r, k) · W_rel (k, j) + b_rel j`, where `dIn`, `dOut` count a node's incoming and outgoing
  edges and `sIn`, `sOut` sum their embeddings.  The kernel counts the degrees in 32-bit integers and converts them
  (exact: 800000 edges cannot wrap the count), rounds operands to a narrower float format before its matrix
  products (the identity here), tiles the rows in blocks of 5000 and 10000 (each output row depends only on its own
  input row, and the blocks tile the arrays), and adds the four terms of a node's output from the left where the
  reference adds two biased projections (associativity of `+`, which needs no finiteness).
  The three frames are the generated ones (the reference's is its run with the results dropped); nothing was
  rewritten when the kernel was idealized, so that conjunct is trivial.
-/
import proofs.«153162_j40810779247267_2_alg».proof.Defs
import proofs.«153162_j40810779247267_2_alg».proof.Proof.Gen.Kernel
import proofs.«153162_j40810779247267_2_alg».proof.Proof.Gen.Kernel.Skeleton
import proofs.«153162_j40810779247267_2_alg».proof.Proof.Gen.Kernel.Launch
import proofs.«153162_j40810779247267_2_alg».proof.Proof.Gen.Kernel.Points
import proofs.«153162_j40810779247267_2_alg».proof.Proof.Gen.Kernel.Frame
import proofs.«153162_j40810779247267_2_alg».proof.Proof.Gen.KernelIdeal
import proofs.«153162_j40810779247267_2_alg».proof.Proof.Gen.KernelIdeal.Skeleton
import proofs.«153162_j40810779247267_2_alg».proof.Proof.Gen.KernelIdeal.Launch
import proofs.«153162_j40810779247267_2_alg».proof.Proof.Gen.KernelIdeal.Points
import proofs.«153162_j40810779247267_2_alg».proof.Proof.Gen.KernelIdeal.Frame
import proofs.«153162_j40810779247267_2_alg».proof.Proof.Gen.ReferenceIdeal
import proofs.«153162_j40810779247267_2_alg».proof.Proof.Gen.ReferenceIdeal.Run
import proofs.«153162_j40810779247267_2_alg».proof.Proof.Gen.ReferenceIdeal.Read
import proofs.«153162_j40810779247267_2_alg».proof.Proof.Gen.Pre_finite_inputs
import proofs.«153162_j40810779247267_2_alg».proof.Proof.KernelRun
import proofs.«153162_j40810779247267_2_alg».proof.Proof.Bridge
import Idealize.ShloMosaic.Adequacy
import Idealize.ShloMosaic.Init

set_option maxRecDepth 16384

noncomputable section

namespace Cert.Proof

open Idealize.ShloMosaic Idealize.SL.Sem

/-- The kernel as printed runs, and leaves its arguments as launched. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- And the reference: its run, with the results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories agreeing on the arguments both idealized programs end with the node array `nodeArr` and the edge
    array `edgeArr` of the kernel's launch memory: the kernel by its regions' write-backs, the reference because its
    results of the same arguments are those arrays. -/
theorem algebraic : Cert.algebraic_KernelIdeal_ReferenceIdeal := by
  intro m ρ m' ρ' _ hagree
  refine ⟨fun c => Cert.KernelIdeal.Blocks.nodeArr (Cert.KernelIdeal.Gen.V1 m ρ) c,
    fun c => Cert.KernelIdeal.EdgeBlocks.edgeArr (Cert.KernelIdeal.Gen.V2 m ρ) c, ?_, ?_⟩
  · exact (θ_run Cert.KernelIdeal.defs _ _).mono (fun r h c =>
      ⟨(h c).1.trans (Cert.KernelIdeal.Blocks.node_final _ c),
       (h c).2.1.trans (Cert.KernelIdeal.EdgeBlocks.edge_final _ c), (h c).2.2⟩)
      (Cert.KernelIdeal.RunValue.run_values (F := Ideal) m ρ)
  · refine (θ_run Cert.ReferenceIdeal.defs _ _).mono (fun r h c => ?_)
      (Cert.ReferenceIdeal.Value.run (F := Ideal) m' ρ')
    obtain ⟨a0, a1, a2, a3, a4, a5, a6, a7, a8, a9⟩ := hagree c
    refine ⟨(h c).1.trans ?_, (h c).2.1.trans ?_, (h c).2.2⟩
    · rw [Cert.ReferenceIdeal.Read.val_main_v29_eq, a0, a1, a2, a3, a4, a5, a6, a7]
      exact Cert.Bridge.node_eq m ρ c
    · rw [Cert.ReferenceIdeal.Read.val_main_v33_eq, a1, a8, a9]
      exact Cert.Bridge.edge_eq m ρ c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
